-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024 : Shape := ⟨2, ![16, 1024]⟩
abbrev S16x256x1024 : Shape := ⟨3, ![16, 256, 1024]⟩
abbrev S32x3072 : Shape := ⟨2, ![32, 3072]⟩
abbrev S32 : Shape := ⟨1, ![32]⟩
abbrev S16x256 : Shape := ⟨2, ![16, 256]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S16x256x1024 : S_.BroadcastsInDim S16x256x1024 (![] : Fin 0 → Fin S16x256x1024.rank)
  reducesTo_S16x256x1024_S_d0_1_2 : S16x256x1024.ReducesTo [0, 1, 2] S_
  bcast_S_S32x3072 : S_.BroadcastsInDim S32x3072 (![] : Fin 0 → Fin S32x3072.rank)
  reducesTo_S32x3072_S_d0_1 : S32x3072.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S16x1024 .f32) (main_arg1 : FVec F S16x256x1024 .f32) (main_arg2 : FVec F S32x3072 .f32) (main_arg3 : FVec F S32 .f32) (main_arg4 : IVec S16x256 32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S16x256x1024 .f32 := Host.absf main_arg1
  let main_cst_0 : FVec F S_ .f32 := constant S_ .f32 0x7F800000#32
  let main_v5 : FVec F S16x256x1024 .f32 := broadcastInDim S16x256x1024 ![] bcast_S_S16x256x1024 main_cst_0
  let main_v6 : IVec S16x256x1024 1 := cmpf .olt main_v4 main_v5
  let main_c_1 : IVec S_ 1 := constantI S_ 1 1#1
  let main_v7 : IVec S_ 1 := (fun x v => Host.reduce IntOp.andi x v reducesTo_S16x256x1024_S_d0_1_2 h_S_) main_v6 main_c_1
  let main_v8 : IVec S_ 1 := andi main_v3 main_v7
  let main_v9 : FVec F S32x3072 .f32 := Host.absf main_arg2
  let main_cst_2 : FVec F S_ .f32 := constant S_ .f32 0x7F800000#32
  let main_v10 : FVec F S32x3072 .f32 := broadcastInDim S32x3072 ![] bcast_S_S32x3072 main_cst_2
  let main_v11 : IVec S32x3072 1 := cmpf .olt main_v9 main_v10
  let main_c_3 : IVec S_ 1 := constantI S_ 1 1#1
  let main_v12 : IVec S_ 1 := (fun x v => Host.reduce IntOp.andi x v reducesTo_S32x3072_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S16x1024 : Shape := ⟨2, ![16, 1024]⟩
abbrev S16x256x1024 : Shape := ⟨3, ![16, 256, 1024]⟩
abbrev S32x3072 : Shape := ⟨2, ![32, 3072]⟩
abbrev S32 : Shape := ⟨1, ![32]⟩
abbrev S16x256 : Shape := ⟨2, ![16, 256]⟩
abbrev S32x1024 : Shape := ⟨2, ![32, 1024]⟩
abbrev S64x1024 : Shape := ⟨2, ![64, 1024]⟩
abbrev S1024x64 : Shape := ⟨2, ![1024, 64]⟩
abbrev S4096x1024 : Shape := ⟨2, ![4096, 1024]⟩
abbrev S4096x64 : Shape := ⟨2, ![4096, 64]⟩
abbrev S512x1024 : Shape := ⟨2, ![512, 1024]⟩
abbrev S512x64 : Shape := ⟨2, ![512, 64]⟩
abbrev S16x256x64 : Shape := ⟨3, ![16, 256, 64]⟩
abbrev S16x256x32 : Shape := ⟨3, ![16, 256, 32]⟩
abbrev S1024x32 : Shape := ⟨2, ![1024, 32]⟩
abbrev S16x32 : Shape := ⟨2, ![16, 32]⟩
abbrev S1x32 : Shape := ⟨2, ![1, 32]⟩
abbrev S16x256x256x32 : Shape := ⟨4, ![16, 256, 256, 32]⟩
abbrev S1x128x32 : Shape := ⟨3, ![1, 128, 32]⟩
abbrev S1x256x32 : Shape := ⟨3, ![1, 256, 32]⟩
abbrev S1x128x256x32 : Shape := ⟨4, ![1, 128, 256, 32]⟩
abbrev S128x32 : Shape := ⟨2, ![128, 32]⟩
abbrev S256x32 : Shape := ⟨2, ![256, 32]⟩
abbrev S128x1x32 : Shape := ⟨3, ![128, 1, 32]⟩
abbrev S128x256x32 : Shape := ⟨3, ![128, 256, 32]⟩
abbrev S1x1x32 : Shape := ⟨3, ![1, 1, 32]⟩

abbrev nBuf : Space → Nat
  | .hbm => 21
  | .vmem => 12
  | .smem => 0
  | _ => 0

abbrev bufTy : (tb : Table) → Fin (tcTables nBuf tb) → BufTy
  | .hbm, ⟨0, _⟩ => ⟨S16x1024, .f32⟩
  | .hbm, ⟨1, _⟩ => ⟨S16x256x1024, .f32⟩
  | .hbm, ⟨2, _⟩ => ⟨S32x3072, .f32⟩
  | .hbm, ⟨3, _⟩ => ⟨S32, .f32⟩
  | .hbm, ⟨4, _⟩ => ⟨S16x256, .i32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S64x1024, .f32⟩
  | .hbm, ⟨9, _⟩ => ⟨S1024x64, .f32⟩
  | .hbm, ⟨10, _⟩ => ⟨S4096x1024, .f32⟩
  | .hbm, ⟨11, _⟩ => ⟨S4096x64, .f32⟩
  | .hbm, ⟨12, _⟩ => ⟨S16x256x64, .f32⟩
  | .hbm, ⟨13, _⟩ => ⟨S16x256x32, .f32⟩
  | .hbm, ⟨14, _⟩ => ⟨S16x256x32, .f32⟩
  | .hbm, ⟨15, _⟩ => ⟨S1024x32, .f32⟩
  | .hbm, ⟨16, _⟩ => ⟨S16x32, .f32⟩
  | .hbm, ⟨17, _⟩ => ⟨S1x32, .f32⟩
  | .hbm, ⟨18, _⟩ => ⟨S16x32, .f32⟩
  | .hbm, ⟨19, _⟩ => ⟨S16x32, .f32⟩
  | .hbm, ⟨20, _⟩ => ⟨S16x256x256x32, .f32⟩
  | .local _ .vmem, ⟨0, _⟩ => ⟨S512x1024, .f32⟩
  | .local _ .vmem, ⟨1, _⟩ => ⟨S512x1024, .f32⟩
  | .local _ .vmem, ⟨2, _⟩ => ⟨S1024x64, .f32⟩
  | .local _ .vmem, ⟨3, _⟩ => ⟨S512x64, .f32⟩
  | .local _ .vmem, ⟨4, _⟩ => ⟨S512x64, .f32⟩
  | .local _ .vmem, ⟨5, _⟩ => ⟨S1x128x32, .f32⟩
  | .local _ .vmem, ⟨6, _⟩ => ⟨S1x128x32, .f32⟩
  | .local _ .vmem, ⟨7, _⟩ => ⟨S1x256x32, .f32⟩
  | .local _ .vmem, ⟨8, _⟩ => ⟨S1x256x32, .f32⟩
  | .local _ .vmem, ⟨9, _⟩ => ⟨S16x32, .f32⟩
  | .local _ .vmem, ⟨10, _⟩ => ⟨S1x128x256x32, .f32⟩
  | .local _ .vmem, ⟨11, _⟩ => ⟨S1x128x256x32, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 2], ![false, false]⟩

def k1_off1 (i : grid1.Coords) : Fin 2 → Nat :=
  let arg0 : BitVec 32 := BitVec.ofNat 32 (i 0).val
  let v4 : Index := Scalar.indexCast arg0
  let c0_5 : Index := 0#32
  ![v4.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x128x256x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S32x3072_S32x1024_0_0 : S32x3072.Slices ![0, 0] S32x1024
  slices_S32x3072_S32x1024_0_1024 : S32x3072.Slices ![0, 1024] S32x1024
  slices_S32x3072_S32x1024_0_2048 : S32x3072.Slices ![0, 2048] S32x1024
  concatenates_S32x1024_S32x1024_S64x1024_d0 : Shape.Concatenates [S32x1024, S32x1024] S64x1024 0
  transposes_S64x1024_S1024x64_1_0 : S64x1024.Transposes [1, 0] S1024x64
  shapeCasts_S16x256x1024_S4096x1024 : S16x256x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S512x64_S512x64_0_0 : ∀ a, (![0, 0] : Fin 2 → Nat) a + S512x64.size a ≤ S512x64.size a
  h_S512x64 : 0 < S512x64.numel
  shapeCasts_S4096x64_S16x256x64 : S4096x64.ShapeCasts S16x256x64
  slices_S16x256x64_S16x256x32_0_0_0 : S16x256x64.Slices ![0, 0, 0] S16x256x32
  slices_S16x256x64_S16x256x32_0_0_32 : S16x256x64.Slices ![0, 0, 32] S16x256x32
  transposes_S32x1024_S1024x32_1_0 : S32x1024.Transposes [1, 0] S1024x32
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  inb_S1x128x32_S1x128x32_0_0_0 : ∀ a, (![0, 0, 0] : Fin 3 → Nat) a + S1x128x32.size a ≤ S1x128x32.size a
  h_S1x128x32 : 0 < S1x128x32.numel
  shapeCasts_S1x128x32_S128x32 : S1x128x32.ShapeCasts S128x32
  inb_S1x256x32_S1x256x32_0_0_0 : ∀ a, (![0, 0, 0] : Fin 3 → Nat) a + S1x256x32.size a ≤ S1x256x32.size a
  h_S1x256x32 : 0 < S1x256x32.numel
  shapeCasts_S1x256x32_S256x32 : S1x256x32.ShapeCasts S256x32
  h_S1x32 : 0 < S1x32.numel
  shapeCasts_S1x32_S32 : S1x32.ShapeCasts S32
  shapeCasts_S128x32_S128x1x32 : S128x32.ShapeCasts S128x1x32
  shapeCasts_S256x32_S1x256x32 : S256x32.ShapeCasts S1x256x32
  broadcasts_S128x1x32_S128x256x32 : S128x1x32.Broadcasts S128x256x32
  broadcasts_S1x256x32_S128x256x32 : S1x256x32.Broadcasts S128x256x32
  shapeCasts_S32_S1x1x32 : S32.ShapeCasts S1x1x32
  broadcasts_S1x1x32_S128x256x32 : S1x1x32.Broadcasts S128x256x32
  inb_S1x128x256x32_S1x128x256x32_0_0_0_0 : ∀ a, (![0, 0, 0, 0] : Fin 4 → Nat) a + S1x128x256x32.size a ≤ S1x128x256x32.size a
  h_S1x128x256x32 : 0 < S1x128x256x32.numel
  shapeCasts_S1x128x256x32_S128x256x32 : S1x128x256x32.ShapeCasts S128x256x32
  shapeCasts_S128x256x32_S1x128x256x32 : S128x256x32.ShapeCasts S1x128x256x32
  dot_S512x1024_S1024x64_S512x64_1_0_0_1_n_n_wf : DotDims.WF S512x1024 S1024x64 S512x64 [1] [0] [0] [1] [] []
  dot_S16x1024_S1024x32_S16x32_1_0_0_1_n_n_wf : DotDims.WF S16x1024 S1024x32 S16x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S4096x64.size a
  hwx0_2 : ∀ i : grid0.Coords, EltTy.bits .f32 = 32 ∨ (Rect.block (s := S4096x64) S512x64.size (cc0_transform_2 i) (hinb0_2 i)).WholeWords (EltTy.packing .f32)
  hrank1 : 0 < grid1.rank
  k1_off1_inb : ∀ i : grid1.Coords, ∀ a, (k1_off1 i) a + S1x32.size a ≤ S16x32.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x32.size a ≤ S16x256x32.size a
  hwx1_0 : ∀ i : grid1.Coords, EltTy.bits .f32 = 32 ∨ (Rect.block (s := S16x256x32) S1x128x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x32.size a ≤ S16x256x32.size a
  hwx1_1 : ∀ i : grid1.Coords, EltTy.bits .f32 = 32 ∨ (Rect.block (s := S16x256x32) S1x256x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .f32 = 32 ∨ (Rect.block (s := S16x32) S16x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x256x32.size a ≤ S16x256x256x32.size a
  hwx1_3 : ∀ i : grid1.Coords, EltTy.bits .f32 = 32 ∨ (Rect.block (s := S16x256x256x32) S1x128x256x32.size (cc1_transform_3 i) (hinb1_3 i)).WholeWords (EltTy.packing .f32)

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S16x1024_S1024x32_S16x32_1_0_0_1_n_n : DotDims S16x1024 S1024x32 S16x32 where
  lhsContracting := [1]
  rhsContracting := [0]
  lhsNonContracting := [0]
  rhsNonContracting := [1]
  lhsBatch := []
  rhsBatch := []
  wf := dot_S16x1024_S1024x32_S16x32_1_0_0_1_n_n_wf

abbrev win0_0 : Pipeline.Window sig grid0 :=
  Pipeline.Window.ofSpec (Memref.whole main_v5) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S1x128x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x256x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128x256x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x1024 : Shape := ⟨2, ![16, 1024]⟩
abbrev S16x256x1024 : Shape := ⟨3, ![16, 256, 1024]⟩
abbrev S32x3072 : Shape := ⟨2, ![32, 3072]⟩
abbrev S32 : Shape := ⟨1, ![32]⟩
abbrev S16x256 : Shape := ⟨2, ![16, 256]⟩
abbrev S32x1024 : Shape := ⟨2, ![32, 1024]⟩
abbrev S16x256x32 : Shape := ⟨3, ![16, 256, 32]⟩
abbrev S1024x32 : Shape := ⟨2, ![1024, 32]⟩
abbrev S16x32 : Shape := ⟨2, ![16, 32]⟩
abbrev S1x32 : Shape := ⟨2, ![1, 32]⟩
abbrev S16x256x1x32 : Shape := ⟨4, ![16, 256, 1, 32]⟩
abbrev S16x1x256x32 : Shape := ⟨4, ![16, 1, 256, 32]⟩
abbrev S16x256x256x32 : Shape := ⟨4, ![16, 256, 256, 32]⟩
abbrev S16x1x1x32 : Shape := ⟨4, ![16, 1, 1, 32]⟩

abbrev nBuf : Space → Nat
  | .hbm => 23
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x256x1024, .f32⟩
  | .hbm, ⟨2, _⟩ => ⟨S32x3072, .f32⟩
  | .hbm, ⟨3, _⟩ => ⟨S32, .f32⟩
  | .hbm, ⟨4, _⟩ => ⟨S16x256, .i32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S16x256x32, .f32⟩
  | .hbm, ⟨9, _⟩ => ⟨S16x256x32, .f32⟩
  | .hbm, ⟨10, _⟩ => ⟨S1024x32, .f32⟩
  | .hbm, ⟨11, _⟩ => ⟨S16x32, .f32⟩
  | .hbm, ⟨12, _⟩ => ⟨S1x32, .f32⟩
  | .hbm, ⟨13, _⟩ => ⟨S16x32, .f32⟩
  | .hbm, ⟨14, _⟩ => ⟨S16x32, .f32⟩
  | .hbm, ⟨15, _⟩ => ⟨S16x256x1x32, .f32⟩
  | .hbm, ⟨16, _⟩ => ⟨S16x1x256x32, .f32⟩
  | .hbm, ⟨17, _⟩ => ⟨S16x256x256x32, .f32⟩
  | .hbm, ⟨18, _⟩ => ⟨S16x256x256x32, .f32⟩
  | .hbm, ⟨19, _⟩ => ⟨S16x256x256x32, .f32⟩
  | .hbm, ⟨20, _⟩ => ⟨S16x1x1x32, .f32⟩
  | .hbm, ⟨21, _⟩ => ⟨S16x256x256x32, .f32⟩
  | .hbm, ⟨22, _⟩ => ⟨S16x256x256x32, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  slices_S32x3072_S32x1024_0_0 : S32x3072.Slices ![0, 0] S32x1024
  slices_S32x3072_S32x1024_0_1024 : S32x3072.Slices ![0, 1024] S32x1024
  slices_S32x3072_S32x1024_0_2048 : S32x3072.Slices ![0, 2048] S32x1024
  transposes_S32x1024_S1024x32_1_0 : S32x1024.Transposes [1, 0] S1024x32
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  bcast_S16x256x32_S16x256x1x32_0_1_3 : S16x256x32.BroadcastsInDim S16x256x1x32 (![0, 1, 3] : Fin 3 → Fin S16x256x1x32.rank)
  bcast_S16x256x32_S16x1x256x32_0_2_3 : S16x256x32.BroadcastsInDim S16x1x256x32 (![0, 2, 3] : Fin 3 → Fin S16x1x256x32.rank)
  bcast_S16x256x1x32_S16x256x256x32_0_1_2_3 : S16x256x1x32.BroadcastsInDim S16x256x256x32 (![0, 1, 2, 3] : Fin 4 → Fin S16x256x256x32.rank)
  bcast_S16x1x256x32_S16x256x256x32_0_1_2_3 : S16x1x256x32.BroadcastsInDim S16x256x256x32 (![0, 1, 2, 3] : Fin 4 → Fin S16x256x256x32.rank)
  bcast_S16x32_S16x1x1x32_0_3 : S16x32.BroadcastsInDim S16x1x1x32 (![0, 3] : Fin 2 → Fin S16x1x1x32.rank)
  bcast_S16x1x1x32_S16x256x256x32_0_1_2_3 : S16x1x1x32.BroadcastsInDim S16x256x256x32 (![0, 1, 2, 3] : Fin 4 → Fin S16x256x256x32.rank)
  dot_S16x256x1024_S32x1024_S16x256x32_2_1_01_0_n_n_wf : DotDims.WF S16x256x1024 S32x1024 S16x256x32 [2] [1] [0, 1] [0] [] []
  dot_S16x1024_S1024x32_S16x32_1_0_0_1_n_n_wf : DotDims.WF S16x1024 S1024x32 S16x32 [1] [0] [0] [1] [] []

variable [Facts₀]

def dot_S16x256x1024_S32x1024_S16x256x32_2_1_01_0_n_n : DotDims S16x256x1024 S32x1024 S16x256x32 where
  lhsContracting := [2]
  rhsContracting := [1]
  lhsNonContracting := [0, 1]
  rhsNonContracting := [0]
  lhsBatch := []
  rhsBatch := []
  wf := dot_S16x256x1024_S32x1024_S16x256x32_2_1_01_0_n_n_wf
def dot_S16x1024_S1024x32_S16x32_1_0_0_1_n_n : DotDims S16x1024 S1024x32 S16x32 where
  lhsContracting := [1]
  rhsContracting := [0]
  lhsNonContracting := [0]
  rhsNonContracting := [1]
  lhsBatch := []
  rhsBatch := []
  wf := dot_S16x1024_S1024x32_S16x32_1_0_0_1_n_n_wf

class Facts : Prop extends Facts₀ where

variable [Facts]
-- ==== Proof.Spec.lean ====
/-
  The function both programs compute, over the extended reals.

  The arguments are `S : 16 × 1024`, `E : 16 × 256 × 1024`, `W : 32 × 3072` and `β : 32`.  Read `W` as three
  32 × 1024 bands side by side, `W = [W₁ | W₂ | W₃]`.  The result, at `(b, i, j, t)`, is

      (∑ₖ E(b,i,k) · W₁(t,k)  +  ∑ₖ E(b,j,k) · W₂(t,k))  +  (∑ₖ S(b,k) · W₃(t,k) + β(t)).

  `pair` is one such 1024-term sum of a row of `E` against a row of a band of `W`; `bsum` is the outer
  three-way sum with its last summand left as any 16 × 32 array.  Only commutative-monoid facts about `+` are
  ever needed between the two programs, so nothing here asks the entries to be finite.
-/
import Idealize.ShloMosaic.PureOps.Ideal
import Idealize.ShloMosaic.Lib.ValueIdx

noncomputable section

namespace Cert.Spec

open Idealize.ShloMosaic Idealize.ShloMosaic.ValueIdx

/-- Row `(b, i)` of `E` against row `t` of the band of `W` that starts at column `o`: a 1024-term sum. -/
def pair (E : (⟨3, ![16, 256, 1024]⟩ : Shape).Idx → EReal) (W : (⟨2, ![32, 3072]⟩ : Shape).Idx → EReal)
    (o : Nat) (ho : o + 1024 ≤ 3072) : (⟨3, ![16, 256, 32]⟩ : Shape).Idx → EReal :=
  fun i => ∑ k : Fin 1024, E (ix3 (i 0) (i 1) k) * W (ix2 (i 2) ⟨o + k.val, by have := k.isLt; omega⟩)

/-- The three-way broadcast sum: `(P₁(b,i,t) + P₂(b,j,t)) + Pₛ(b,t)` at `(b, i, j, t)`. -/
def bsum (P1 P2 : (⟨3, ![16, 256, 32]⟩ : Shape).Idx → EReal) (Ps : (⟨2, ![16, 32]⟩ : Shape).Idx → EReal) :
    (⟨4, ![16, 256, 256, 32]⟩ : Shape).Idx → EReal :=
  fun i => (P1 (ix3 (i 0) (i 1) (i 3)) + P2 (ix3 (i 0) (i 2) (i 3))) + Ps (ix2 (i 0) (i 3))

/-- The result as one function of `E`, `W` and the 16 × 32 array of the last summand. -/
def G (E : (⟨3, ![16, 256, 1024]⟩ : Shape).Idx → EReal) (W : (⟨2, ![32, 3072]⟩ : Shape).Idx → EReal)
    (Ps : (⟨2, ![16, 32]⟩ : Shape).Idx → EReal) : (⟨4, ![16, 256, 256, 32]⟩ : Shape).Idx → EReal :=
  bsum (pair E W 0 (by decide)) (pair E W 1024 (by decide)) Ps

end Cert.Spec

end
-- ==== Proof.KernelRun.lean ====
/-
  The idealized kernel's whole run, with its result array named.

  The program is two grid computations among two stretches of array operations.  The buffer contents at the
  four boundaries are a fold from the launch memory: after the first stretch, after the first grid
  computation (its output array at what its write-backs leave), after the second stretch, after the second
  grid computation.  Every execution terminates without a fault in a state whose buffers are the last of
  these; so the result array ends at the last boundary's contents of its buffer, and the arguments end as
  launched.
-/
import proofs.«125985_j38062000177708_2_alg».proof.Defs
import proofs.«125985_j38062000177708_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's
    contents of its buffer and every argument array as launched. -/
theorem run_result : θ_run defs (onTc (τ := τ) (main (F := F))) ⟨m, fun _ => 0, ρ⟩ (fun r => ∀ c : Dev nD,
      r.2.mem ((c.tc : Thread nD τ).loc main_v15) = W4 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v15 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

/-- The result array's buffer at the last boundary is what the second grid computation's write-backs leave
    in its output array. -/
theorem result_arr (c : Dev nD) :
    W4 m ρ c (Proc.devRef .tc main_v15) = (dat1 (V3 m ρ) c).arrAt 3 cfg1.N :=
  W4_arr m ρ c 3

end Cert.KernelIdeal.Whole

end
-- ==== Proof.Layout.lean ====
/-
  The array re-arrangements between the two grid computations, each read at an index.

  The first computation multiplies `E` reshaped to 4096 × 1024 (row `256 b + i` is row `(b, i)` of `E`) by the
  1024 × 64 transpose of the first two bands of `W` stacked (column `n < 32` is row `n` of the first band, column
  `32 + t` row `t` of the second).  Its 4096 × 64 product is reshaped to 16 × 256 × 64 and cut into its two
  halves of 32 columns.  Each lemma below reads one of these re-arrangements at an index written by coordinates.
-/
import Idealize.ShloMosaic.Lib.Pipeline.Value
import Idealize.ShloMosaic.Lib.ValueIdx
import Idealize.ShloMosaic.Lib.ValueLayout

noncomputable section

namespace Cert.Layout

open Idealize.ShloMosaic Idealize.ShloMosaic.ValueIdx

variable {α : Type}

/-- `E` reshaped to 4096 × 1024 reads, at row `256 b + i`, row `(b, i)` of `E`. -/
theorem rows_of_planes (E : (⟨3, ![16, 256, 1024]⟩ : Shape).Idx → α)
    (h : (⟨3, ![16, 256, 1024]⟩ : Shape).ShapeCasts ⟨2, ![4096, 1024]⟩)
    (b : Fin 16) (i : Fin 256) (k : Fin 1024) (r : Fin 4096) (hr : r.val = b.val * 256 + i.val) :
    shapeCast ⟨2, ![4096, 1024]⟩ E h (ix2 r k) = E (ix3 b i k) :=
  shapeCast_apply E h _ _ (by
    rw [Shape.rowMajor_val_three, Shape.rowMajor_val_two]
    show (b.val * 256 + i.val) * 1024 + k.val = r.val * 1024 + k.val
    rw [hr])

/-- A 4096 × 64 array reshaped to 16 × 256 × 64 and cut to the 32 columns from `o` reads, at `(b, i, t)`, the
    array at row `256 b + i`, column `o + t`. -/
theorem band_of_rows (X : (⟨2, ![4096, 64]⟩ : Shape).Idx → α) (o : Nat)
    (h1 : (⟨2, ![4096, 64]⟩ : Shape).ShapeCasts ⟨3, ![16, 256, 64]⟩)
    (h2 : (⟨3, ![16, 256, 64]⟩ : Shape).Slices ![0, 0, o] ⟨3, ![16, 256, 32]⟩)
    (b : Fin 16) (i : Fin 256) (t : Fin 32) (r : Fin 4096) (n : Fin 64)
    (hr : r.val = b.val * 256 + i.val) (hn : n.val = o + t.val) :
    extractStridedSlice ⟨3, ![16, 256, 32]⟩ ![0, 0, o] (shapeCast ⟨3, ![16, 256, 64]⟩ X h1) h2 (ix3 b i t) = X (ix2 r n) := by
  refine (extractStridedSlice_apply _ _ h2 _ (ix3 b i n) fun ax => ?_).trans ?_
  · match ax with
    | ⟨0, _⟩ => exact (Nat.zero_add _).symm
    | ⟨1, _⟩ => exact (Nat.zero_add _).symm
    | ⟨2, _⟩ => exact hn
  · exact shapeCast_apply X h1 _ _ (by
      rw [Shape.rowMajor_val_two, Shape.rowMajor_val_three]
      show r.val * 64 + n.val = (b.val * 256 + i.val) * 64 + n.val
      rw [hr])

/-- Two 32 × 1024 arrays stacked along the rows, then transposed: column `n < 32` is row `n` of the first. -/
theorem stacked_left (A B : (⟨2, ![32, 1024]⟩ : Shape).Idx → α)
    (hc : Shape.Concatenates [(⟨2, ![32, 1024]⟩ : Shape), ⟨2, ![32, 1024]⟩] ⟨2, ![64, 1024]⟩ 0)
    (ht : (⟨2, ![64, 1024]⟩ : Shape).Transposes [1, 0] ⟨2, ![1024, 64]⟩)
    (k : Fin 1024) (n : Fin 64) (t : Fin 32) (hn : n.val = t.val) :
    transpose ⟨2, ![1024, 64]⟩ [1, 0] (concatenate ⟨2, ![64, 1024]⟩ 0 [⟨⟨2, ![32, 1024]⟩, A⟩, ⟨⟨2, ![32, 1024]⟩, B⟩] hc) ht (ix2 k n)
      = A (ix2 t k) := by
  rw [transpose_ix2_apply]
  exact concatenate_pair_apply_left 0 A B hc (ix2 n k) rfl (ix2 t k) (fun b => match b with
    | ⟨0, _⟩ => hn.symm
    | ⟨1, _⟩ => rfl)

/-- … and column `32 + t` is row `t` of the second. -/
theorem stacked_right (A B : (⟨2, ![32, 1024]⟩ : Shape).Idx → α)
    (hc : Shape.Concatenates [(⟨2, ![32, 1024]⟩ : Shape), ⟨2, ![32, 1024]⟩] ⟨2, ![64, 1024]⟩ 0)
    (ht : (⟨2, ![64, 1024]⟩ : Shape).Transposes [1, 0] ⟨2, ![1024, 64]⟩)
    (k : Fin 1024) (n : Fin 64) (t : Fin 32) (hn : n.val = 32 + t.val) :
    transpose ⟨2, ![1024, 64]⟩ [1, 0] (concatenate ⟨2, ![64, 1024]⟩ 0 [⟨⟨2, ![32, 1024]⟩, A⟩, ⟨⟨2, ![32, 1024]⟩, B⟩] hc) ht (ix2 k n)
      = B (ix2 t k) := by
  rw [transpose_ix2_apply]
  exact concatenate_pair_apply_right 0 A B hc (ix2 n k) rfl rfl (ix2 t k) (fun b hb => match b with
    | ⟨0, _⟩ => absurd rfl hb
    | ⟨1, _⟩ => rfl) (by show t.val + 32 = n.val; omega)

end Cert.Layout

end
-- ==== Proof.Region0.lean ====
/-
  The first grid computation: a matrix product, 512 rows at a time.

  Its grid has 8 points.  At point `t` the body loads rows `512 t … 512 t + 511` of the left array
  (4096 × 1024), the whole right array (1024 × 64), multiplies them into a zero accumulator and stores
  the 512 × 64 product, which is written back as rows `512 t … 512 t + 511` of the output array.  On the
  extended reals a product into a zero accumulator is the plain sum over the contracted axis, so entry
  `(r, n)` of the output array ends at `∑ k, left (r, k) · right (k, n)`, whatever the region found in
  the two input arrays.
-/
import proofs.«125985_j38062000177708_2_alg».proof.Defs
import proofs.«125985_j38062000177708_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Product

open Idealize.ShloMosaic Idealize.ShloMosaic.TcCoe Idealize.SL.Sem
open Idealize.ShloMosaic.Pipeline (Dat)
open Idealize.ShloMosaic.ValueIdx
open Cert.KernelIdeal Cert.KernelIdeal.Gen

/-- The matrix product of a 4096 × 1024 array and a 1024 × 64 array, entry by entry. -/
def MM (A : S4096x1024.Idx → EReal) (B : S1024x64.Idx → EReal) : S4096x64.Idx → EReal :=
  fun i => ∑ k : Fin 1024, A (ix2 (i 0) k) * B (ix2 k (i 1))

theorem zeros2 : (![0, 0] : Fin 2 → Nat) = fun _ => 0 := funext fun a => by fin_cases a <;> rfl

/-- The left operand's index at output index `j` and contraction index `q`: row `j 0`, column `q`. -/
theorem lhs_row (j : S512x64.Idx) (q : dot_S512x1024_S1024x64_S512x64_1_0_0_1_n_n.contr.Idx) :
    (dot_S512x1024_S1024x64_S512x64_1_0_0_1_n_n.lhsIdx j q 0).val = (j 0).val := by
  unfold DotDims.lhsIdx
  rw [dif_neg (show ¬(0 : Fin S512x1024.rank) ∈ dot_S512x1024_S1024x64_S512x64_1_0_0_1_n_n.lhsBatch by decide),
    dif_pos (show (0 : Fin S512x1024.rank) ∈ dot_S512x1024_S1024x64_S512x64_1_0_0_1_n_n.lhsNonContracting by decide)]
  rfl
theorem lhs_col (j : S512x64.Idx) (q : dot_S512x1024_S1024x64_S512x64_1_0_0_1_n_n.contr.Idx) :
    (dot_S512x1024_S1024x64_S512x64_1_0_0_1_n_n.lhsIdx j q 1).val = (q ⟨0, by decide⟩).val :=
  dot_S512x1024_S1024x64_S512x64_1_0_0_1_n_n.lhsIdx_val_of_single rfl j q
/-- The right operand's: row `q`, column `j 1`. -/
theorem rhs_row (j : S512x64.Idx) (q : dot_S512x1024_S1024x64_S512x64_1_0_0_1_n_n.contr.Idx) :
    (dot_S512x1024_S1024x64_S512x64_1_0_0_1_n_n.rhsIdx j q 0).val = (q ⟨0, by decide⟩).val :=
  dot_S512x1024_S1024x64_S512x64_1_0_0_1_n_n.rhsIdx_val_of_single rfl j q
theorem rhs_col (j : S512x64.Idx) (q : dot_S512x1024_S1024x64_S512x64_1_0_0_1_n_n.contr.Idx) :
    (dot_S512x1024_S1024x64_S512x64_1_0_0_1_n_n.rhsIdx j q 1).val = (j 1).val := by
  unfold DotDims.rhsIdx
  rw [dif_neg (show ¬(1 : Fin S1024x64.rank) ∈ dot_S512x1024_S1024x64_S512x64_1_0_0_1_n_n.rhsBatch by decide),
    dif_pos (show (1 : Fin S1024x64.rank) ∈ dot_S512x1024_S1024x64_S512x64_1_0_0_1_n_n.rhsNonContracting by decide)]
  rfl

/-- The body's stored value at row `j 0`, column `j 1` of its block: the sum over the contracted axis of the
    loaded blocks' products. -/
theorem pay_apply (x0 : Vec Ideal S512x1024 .f32) (x1 : Vec Ideal S1024x64 .f32) (j : S512x64.Idx) :
    k0_pay1 (F := Ideal) x0 x1 j = ∑ k : Fin 1024, x0 (ix2 (j 0) k) * x1 (ix2 k (j 1)) := by
  unfold k0_pay1
  simp only [shapeCast_self, matmul]
  rw [Ideal.matmul_constant_zero_apply,
    ← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx j
      ((contrEquiv1 dot_S512x1024_S1024x64_S512x64_1_0_0_1_n_n 1024 rfl rfl).symm k) = ix2 (j 0) k :=
    funext fun a => Fin.ext (by
      match a with
      | ⟨0, _⟩ => exact lhs_row _ _
      | ⟨1, _⟩ => exact (lhs_col _ _).trans hk)
  have er : dot_S512x1024_S1024x64_S512x64_1_0_0_1_n_n.rhsIdx j
      ((contrEquiv1 dot_S512x1024_S1024x64_S512x64_1_0_0_1_n_n 1024 rfl rfl).symm k) = ix2 k (j 1) :=
    funext fun a => Fin.ext (by
      match a with
      | ⟨0, _⟩ => exact (rhs_row _ _).trans hk
      | ⟨1, _⟩ => exact rhs_col _ _)
  rw [el, er]
  rfl

variable (V : (c : Dev nD) → (b : Ref sig .tc) → Buf (Elt Ideal) ((c : Thread nD τ).loc b))

/-- The block indices of the three windows over the grid: the left array's and the output's blocks move with
    the point along the rows, the right array's block is always the whole array. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two input arrays as the region finds them. -/
theorem flushed_eq (c : Dev nD) (t : Fin cfg0.N) :
    (dat0 V c).flushed 2 t = ((cfg0.win 2).blk t).view.read (Elt Ideal)
      (MM (V c main_v5 : S4096x1024.Idx → EReal) (V c main_v4 : S1024x64.Idx → EReal)) := by
  show (cfg0.win 2).cut (grid0.coords t) ((dat0 V c).after 2 t) = _
  rw [after0_2]
  unfold out0_2
  rw [View.canon_unit_zero zeros2]
  simp only [View.ld_unit_zero (S := S512x1024) zeros2, View.ld_unit_zero (S := S1024x64) zeros2]
  obtain ⟨e00, e01, e10, e11, e20, e21⟩ := index_facts t
  funext j
  refine (pay_apply (iblk0 V c 0 t) (iblk0 V c 1 t) j).trans ?_
  show _ = MM _ _ (((cfg0.win 2).blk t).view.emb j)
  unfold MM
  refine Finset.sum_congr rfl fun k _ => ?_
  congr 1
  · show V c main_v5 (((cfg0.win 0).blk t).view.emb (ix2 (j 0) k)) = V c main_v5 _
    congr 1
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * k.val = k.val; omega
  · show V c main_v4 (((cfg0.win 1).blk t).view.emb (ix2 k (j 1))) = V c main_v4 _
    congr 1
    funext a; apply Fin.ext
    match a with
    | ⟨0, _⟩ => show win0_1.index t (0 : Fin 2) * 1024 + 1 * k.val = k.val; omega
    | ⟨1, _⟩ => show win0_1.index t (1 : Fin 2) * 64 + 1 * (j 1).val = win0_2.index t (1 : Fin 2) * 64 + 1 * (j 1).val; omega

/-- An index of the output array is in point `t`'s block iff each coordinate is in the block's range. -/
theorem mem_blk (t : Fin cfg0.N) (i : S4096x64.Idx) :
    i ∈ ((cfg0.win 2).blk t).view.set ↔ ∀ a : Fin 2, win0_2.index t a * S512x64.size a ≤ (i a).val ∧ (i a).val < win0_2.index t a * S512x64.size a + S512x64.size a := by
  show i ∈ ((View.whole main_v6).slice (win0_2.rect t)).set ↔ _
  rw [View.set_slice_whole, Rect.mem_set_unit]
  exact Iff.rfl

/-- The output array after the region: the product of the two input arrays as the region finds them. -/
theorem final (c : Dev nD) :
    (dat0 V c).arrAt 2 cfg0.N = MM (V c main_v5 : S4096x1024.Idx → EReal) (V c main_v4 : S1024x64.Idx → EReal) :=
  (dat0 V c).arrAt_eq_of_cover 2 _ (fun t _ => flushed_eq V c t) fun i => by
    have hi0 : (i 0).val < 4096 := (i 0).isLt
    have hi1 : (i 1).val < 64 := (i 1).isLt
    have hN : cfg0.N = 8 := N_0
    refine ⟨⟨(i 0).val / 512, by omega⟩, flush0_2 _, ?_⟩
    rw [mem_blk]
    obtain ⟨e00, e01, e10, e11, e20, e21⟩ := index_facts ⟨(i 0).val / 512, by omega⟩
    intro a
    match a with
    | ⟨0, _⟩ => show win0_2.index _ (0 : Fin 2) * 512 ≤ (i 0).val ∧ (i 0).val < win0_2.index _ (0 : Fin 2) * 512 + 512; rw [e20]; show (i 0).val / 512 * 512 ≤ _ ∧ _ < (i 0).val / 512 * 512 + 512; omega
    | ⟨1, _⟩ => show win0_2.index _ (1 : Fin 2) * 64 ≤ (i 1).val ∧ (i 1).val < win0_2.index _ (1 : Fin 2) * 64 + 64; rw [e21]; omega

end Cert.KernelIdeal.Product

end
-- ==== Proof.Region1.lean ====
/-
  The second grid computation: a three-way broadcast sum.

  Its grid is 16 × 2.  At point `(b, h)` the body loads rows `128 h … 128 h + 127` of plane `b` of the first
  array (16 × 256 × 32), the whole plane `b` of the second (16 × 256 × 32), and row `b` of the third
  (16 × 32, resident whole; the row is selected inside the body by the first grid coordinate).  It stores,
  at `(i, j, t)` of its 128 × 256 × 32 block, `(first (i, t) + second (j, t)) + third t`, which is written
  back as rows `128 h … 128 h + 127` of plane `b` of the output (16 × 256 × 256 × 32).  So entry
  `(b, i, j, t)` of the output array ends at `(first (b, i, t) + second (b, j, t)) + third (b, t)`, whatever
  the region found in the three input arrays.
-/
import proofs.«125985_j38062000177708_2_alg».proof.Defs
import proofs.«125985_j38062000177708_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import proofs.«125985_j38062000177708_2_alg».proof.Proof.Spec

set_option maxRecDepth 16384

noncomputable section

namespace Cert.KernelIdeal.Spread

open Idealize.ShloMosaic Idealize.ShloMosaic.TcCoe Idealize.SL.Sem Idealize.ShloMosaic.Tactic
open Idealize.ShloMosaic.Pipeline (Dat)
open Idealize.ShloMosaic.ValueIdx
open Cert.KernelIdeal Cert.KernelIdeal.Gen
open Cert.Spec (bsum)

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-! ## The body's layout operations, each read at an index -/

section Layout
variable {α : Type}

/-- A 128 × 32 array cast to 128 × 1 × 32 reads, at `(p, u, r)`, the operand at `(p, r)`. -/
theorem cast_mid_unit (x : S128x32.Idx → α) (h : S128x32.ShapeCasts S128x1x32) (p : Fin 128) (u : Fin 1) (r : Fin 32) :
    shapeCast S128x1x32 x h (ix3 p u r) = x (ix2 p r) :=
  shapeCast_apply x h _ _ (by
    have hu : u.val = 0 := by omega
    rw [Shape.rowMajor_val_three, Shape.rowMajor_val_two]
    show p.val * 32 + r.val = (p.val * 1 + u.val) * 32 + r.val
    rw [hu]; omega)

/-- A 32-vector cast to 1 × 1 × 32 reads, at `(u, v, r)`, the operand at `r`. -/
theorem cast_two_units (x : S32.Idx → α) (h : S32.ShapeCasts S1x1x32) (u v : Fin 1) (r : Fin 32) :
    shapeCast S1x1x32 x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * 32 + r.val
    rw [hu, hv]; omega)

/-- A 128 × 1 × 32 array broadcast along its middle axis reads, at `(p, q, r)`, the operand at `(p, 0, r)`. -/
theorem spread_mid (x : S128x1x32.Idx → α) (h : S128x1x32.Broadcasts S128x256x32) (p : Fin 128) (q : Fin 256) (r : Fin 32) :
    broadcastTo S128x256x32 x h (ix3 p q r) = x (ix3 p (0 : Fin 1) r) :=
  broadcastTo_apply x h _ _ fun a => match a with
    | ⟨0, _⟩ => rfl
    | ⟨1, _⟩ => rfl
    | ⟨2, _⟩ => rfl

/-- A 1 × 256 × 32 array broadcast along its first axis reads, at `(p, q, r)`, the operand at `(0, q, r)`. -/
theorem spread_first (x : S1x256x32.Idx → α) (h : S1x256x32.Broadcasts S128x256x32) (p : Fin 128) (q : Fin 256) (r : Fin 32) :
    broadcastTo S128x256x32 x h (ix3 p q r) = x (ix3 (0 : Fin 1) q r) :=
  broadcastTo_apply x h _ _ fun a => match a with
    | ⟨0, _⟩ => rfl
    | ⟨1, _⟩ => rfl
    | ⟨2, _⟩ => rfl

/-- A 1 × 1 × 32 array broadcast along its first two axes reads, at `(p, q, r)`, the operand at `(0, 0, r)`. -/
theorem spread_two (x : S1x1x32.Idx → α) (h : S1x1x32.Broadcasts S128x256x32) (p : Fin 128) (q : Fin 256) (r : Fin 32) :
    broadcastTo S128x256x32 x h (ix3 p q r) = x (ix3 (0 : Fin 1) (0 : Fin 1) r) :=
  broadcastTo_apply x h _ _ fun a => match a with
    | ⟨0, _⟩ => rfl
    | ⟨1, _⟩ => rfl
    | ⟨2, _⟩ => rfl

end Layout

/-- The body's stored value at `(·, p, q, r)` of its block: the first block at `(p, r)` plus the second at
    `(q, r)`, plus the selected row at `r`. -/
theorem pay_apply (x0 : Vec Ideal S1x128x32 .f32) (x1 : Vec Ideal S1x256x32 .f32) (x5 : Vec Ideal S1x32 .f32)
    (u : Fin 1) (p : Fin 128) (q : Fin 256) (r : Fin 32) :
    k1_pay1 (F := Ideal) x0 x1 x5 (ix4 u p q r)
      = (x0 (ix3 (0 : Fin 1) p r) + x1 (ix3 (0 : Fin 1) q r)) + x5 (ix2 (0 : Fin 1) r) := by
  unfold k1_pay1
  rw [shapeCast_abc_1abc_apply, addf_apply, addf_apply, spread_mid, spread_first, spread_two, cast_mid_unit,
    shapeCast_1ab_ab_apply, shapeCast_ab_1ab_apply, shapeCast_1ab_ab_apply, cast_two_units, shapeCast_1a_a_apply]

/-- What the body leaves in the output's staging buffer: its one store's value, of the two loaded blocks and
    of the third operand read through the selected row's rectangle. -/
theorem out_eq {F : FTy → Type} [FloatOps F] (c : Dev nD) (i : grid1.Coords) (arg2 : Memref sig .tc .vmem S1x128x32 .f32) (harg2 : arg2.IsWhole) (arg3 : Memref sig .tc .vmem S1x256x32 .f32) (harg3 : arg3.IsWhole) (arg4 : Memref sig .tc .vmem S16x32 .f32) (harg4 : arg4.IsWhole) (arg5 : Memref sig .tc .vmem S1x128x256x32 .f32) (harg5 : arg5.IsWhole)
    (x0 : Vec F S1x128x32 .f32) (x1 : Vec F S1x256x32 .f32) (x2 : Vec F S16x32 .f32) :
    out1_A_3 c i arg2 harg2 arg3 harg3 arg4 harg4 arg5 harg5 x0 x1 x2
      = k1_pay1 x0 x1 (View.ld x2 (Rect.unit (s := S16x32) (k1_off1 i) S1x32.size (k1_off1_inb i))) := by
  unfold out1_A_3
  rw [View.read_writes_eq_canon _ _ _ (cover1_A_3 c i arg2 harg2 arg3 harg3 arg4 harg4 arg5 harg5 x0 x1 x2)]
  unfold kernelRun1_A
  dsimp only
  try sl_unfold_words
  rw [View.canon_unit_zero zeros4]
  simp only [View.readAt_eq_ld, harg2.read_unread, harg3.read_unread, harg4.read_unread,
    View.ld_unit_zero (S := S1x128x32) zeros3, View.ld_unit_zero (S := S1x256x32) zeros3]

variable (V : (c : Dev nD) → (b : Ref sig .tc) → Buf (Elt Ideal) ((c : Thread nD τ).loc b))

/-- The block indices of the four windows, and the selected row, over the grid: point `t` is plane `t / 2`,
    half `t % 2`. -/
theorem index_facts : ∀ t : Fin cfg1.N,
    win1_0.index t (0 : Fin 3) = t.val / 2 ∧ win1_0.index t (1 : Fin 3) = t.val % 2 ∧ win1_0.index t (2 : Fin 3) = 0
    ∧ win1_1.index t (0 : Fin 3) = t.val / 2 ∧ win1_1.index t (1 : Fin 3) = 0 ∧ win1_1.index t (2 : Fin 3) = 0
    ∧ win1_2.index t (0 : Fin 2) = 0 ∧ win1_2.index t (1 : Fin 2) = 0
    ∧ win1_3.index t (0 : Fin 4) = t.val / 2 ∧ win1_3.index t (1 : Fin 4) = t.val % 2
    ∧ win1_3.index t (2 : Fin 4) = 0 ∧ win1_3.index t (3 : Fin 4) = 0
    ∧ k1_off1 (grid1.coords t) (0 : Fin 2) = t.val / 2 ∧ k1_off1 (grid1.coords t) (1 : Fin 2) = 0 :=
  (by decide +kernel : ∀ t : Fin grid1.N, _)

/-- What point `t` writes back is block `t` of the broadcast sum of the three input arrays as the region
    finds them. -/
theorem flushed_eq (c : Dev nD) (t : Fin cfg1.N) :
    (dat1 V c).flushed 3 t = ((cfg1.win 3).blk t).view.read (Elt Ideal)
      (bsum (V c main_v8 : S16x256x32.Idx → EReal) (V c main_v9 : S16x256x32.Idx → EReal) (V c main_v14 : S16x32.Idx → EReal)) := by
  show (cfg1.win 3).cut (grid1.coords t) ((dat1 V c).after 3 t) = _
  rw [after1_3]
  unfold outsAt1
  rw [out_eq]
  obtain ⟨a00, a01, a02, a10, a11, a12, a20, a21, a30, a31, a32, a33, o0, o1⟩ := index_facts t
  funext j
  have hj0 : (j 0).val < 1 := (j 0).isLt
  have hj1 : (j 1).val < 128 := (j 1).isLt
  have hj2 : (j 2).val < 256 := (j 2).isLt
  have hj3 : (j 3).val < 32 := (j 3).isLt
  have ej : j = ix4 (⟨(j 0).val, hj0⟩ : Fin 1) (⟨(j 1).val, hj1⟩ : Fin 128) (⟨(j 2).val, hj2⟩ : Fin 256) (⟨(j 3).val, hj3⟩ : Fin 32) := eq_ix4 j
  rw [ej]
  refine (pay_apply _ _ _ _ _ _ _).trans ?_
  show _ = bsum _ _ _ (((cfg1.win 3).blk t).view.emb _)
  unfold bsum
  congr 1
  · congr 1
    · show V c main_v8 (((cfg1.win 0).blk t).view.emb (ix3 (0 : Fin 1) _ _)) = V c main_v8 _
      congr 1
      funext a; apply Fin.ext
      match a with
      | ⟨0, _⟩ => show win1_0.index t (0 : Fin 3) * 1 + 1 * 0 = win1_3.index t (0 : Fin 4) * 1 + 1 * (j 0).val; omega
      | ⟨1, _⟩ => show win1_0.index t (1 : Fin 3) * 128 + 1 * (j 1).val = win1_3.index t (1 : Fin 4) * 128 + 1 * (j 1).val; omega
      | ⟨2, _⟩ => show win1_0.index t (2 : Fin 3) * 32 + 1 * (j 3).val = win1_3.index t (3 : Fin 4) * 32 + 1 * (j 3).val; omega
    · show V c main_v9 (((cfg1.win 1).blk t).view.emb (ix3 (0 : Fin 1) _ _)) = V c main_v9 _
      congr 1
      funext a; apply Fin.ext
      match a with
      | ⟨0, _⟩ => show win1_1.index t (0 : Fin 3) * 1 + 1 * 0 = win1_3.index t (0 : Fin 4) * 1 + 1 * (j 0).val; omega
      | ⟨1, _⟩ => show win1_1.index t (1 : Fin 3) * 256 + 1 * (j 2).val = win1_3.index t (2 : Fin 4) * 256 + 1 * (j 2).val; omega
      | ⟨2, _⟩ => show win1_1.index t (2 : Fin 3) * 32 + 1 * (j 3).val = win1_3.index t (3 : Fin 4) * 32 + 1 * (j 3).val; omega
  · show V c main_v14 (((cfg1.win 2).blk t).view.emb ((Rect.unit (s := S16x32) (k1_off1 (grid1.coords t)) S1x32.size (k1_off1_inb (grid1.coords t))).emb (ix2 (0 : Fin 1) _))) = V c main_v14 _
    congr 1
    funext a; apply Fin.ext
    match a with
    | ⟨0, _⟩ => show win1_2.index t (0 : Fin 2) * 16 + 1 * (k1_off1 (grid1.coords t) (0 : Fin 2) + 1 * 0) = win1_3.index t (0 : Fin 4) * 1 + 1 * (j 0).val; omega
    | ⟨1, _⟩ => show win1_2.index t (1 : Fin 2) * 32 + 1 * (k1_off1 (grid1.coords t) (1 : Fin 2) + 1 * (j 3).val) = win1_3.index t (3 : Fin 4) * 32 + 1 * (j 3).val; omega

/-- An index of the output array is in point `t`'s block iff each coordinate is in the block's range. -/
theorem mem_blk (t : Fin cfg1.N) (i : S16x256x256x32.Idx) :
    i ∈ ((cfg1.win 3).blk t).view.set ↔ ∀ a : Fin 4, win1_3.index t a * S1x128x256x32.size a ≤ (i a).val ∧ (i a).val < win1_3.index t a * S1x128x256x32.size a + S1x128x256x32.size a := by
  show i ∈ ((View.whole main_v15).slice (win1_3.rect t)).set ↔ _
  rw [View.set_slice_whole, Rect.mem_set_unit]
  exact Iff.rfl

/-- The output array after the region: the broadcast sum of the three input arrays as the region finds them. -/
theorem final (c : Dev nD) :
    (dat1 V c).arrAt 3 cfg1.N
      = bsum (V c main_v8 : S16x256x32.Idx → EReal) (V c main_v9 : S16x256x32.Idx → EReal) (V c main_v14 : S16x32.Idx → EReal) :=
  (dat1 V c).arrAt_eq_of_cover 3 _ (fun t _ => flushed_eq V c t) fun i => by
    have hi0 : (i 0).val < 16 := (i 0).isLt
    have hi1 : (i 1).val < 256 := (i 1).isLt
    have hi2 : (i 2).val < 256 := (i 2).isLt
    have hi3 : (i 3).val < 32 := (i 3).isLt
    have hN : cfg1.N = 32 := N_1
    refine ⟨⟨(i 0).val * 2 + (i 1).val / 128, by omega⟩, flush1_3 _, ?_⟩
    rw [mem_blk]
    obtain ⟨a00, a01, a02, a10, a11, a12, a20, a21, a30, a31, a32, a33, o0, o1⟩ := index_facts ⟨(i 0).val * 2 + (i 1).val / 128, by omega⟩
    intro a
    match a with
    | ⟨0, _⟩ => show win1_3.index _ (0 : Fin 4) * 1 ≤ (i 0).val ∧ (i 0).val < win1_3.index _ (0 : Fin 4) * 1 + 1; rw [a30]; show ((i 0).val * 2 + (i 1).val / 128) / 2 * 1 ≤ _ ∧ _ < ((i 0).val * 2 + (i 1).val / 128) / 2 * 1 + 1; omega
    | ⟨1, _⟩ => show win1_3.index _ (1 : Fin 4) * 128 ≤ (i 1).val ∧ (i 1).val < win1_3.index _ (1 : Fin 4) * 128 + 128; rw [a31]; show ((i 0).val * 2 + (i 1).val / 128) % 2 * 128 ≤ _ ∧ _ < ((i 0).val * 2 + (i 1).val / 128) % 2 * 128 + 128; omega
    | ⟨2, _⟩ => show win1_3.index _ (2 : Fin 4) * 256 ≤ (i 2).val ∧ (i 2).val < win1_3.index _ (2 : Fin 4) * 256 + 256; rw [a32]; omega
    | ⟨3, _⟩ => show win1_3.index _ (3 : Fin 4) * 32 ≤ (i 3).val ∧ (i 3).val < win1_3.index _ (3 : Fin 4) * 32 + 32; rw [a33]; omega

end Cert.KernelIdeal.Spread

end
-- ==== Proof.Glue.lean ====
/-
  The idealized kernel computes `Spec.G`.

  Between the launch and the result the buffers pass three boundaries.  After the first stretch of array
  operations the left operand of the product is `E` reshaped to 4096 × 1024 and the right operand the
  transposed stack of the first two bands of `W`.  After the first grid computation the 4096 × 64 product is
  in place.  After the second stretch its two halves of 32 columns, reshaped to 16 × 256 × 32, and the
  16 × 32 array `S · W₃ᵀ + β` are the operands of the second grid computation, which leaves their broadcast
  sum.  Reading each re-arrangement at an index, the two halves are the two 1024-term sums of `Spec.pair`
  (the products' factors in the same order as the reference's), so the result is `Spec.G` of `E`, `W` and
  the kernel's own 16 × 32 array.
-/
import proofs.«125985_j38062000177708_2_alg».proof.Defs
import proofs.«125985_j38062000177708_2_alg».proof.Proof.Gen.KernelIdeal.Frame
import proofs.«125985_j38062000177708_2_alg».proof.Proof.Spec
import proofs.«125985_j38062000177708_2_alg».proof.Proof.Layout
import proofs.«125985_j38062000177708_2_alg».proof.Proof.Region0
import proofs.«125985_j38062000177708_2_alg».proof.Proof.Region1
import proofs.«125985_j38062000177708_2_alg».proof.Proof.KernelRun
import Idealize.ShloMosaic.Lib.StableHlo.Run
import Idealize.ShloMosaic.Lib.ValueLayout

set_option maxRecDepth 16384

noncomputable section

namespace Cert.KernelIdeal.Glue

open Idealize.ShloMosaic Idealize.ShloMosaic.TcCoe Idealize.SL.Sem Idealize.ShloMosaic.StableHlo
open Idealize.ShloMosaic.ValueIdx
open Cert.KernelIdeal Cert.KernelIdeal.Gen Cert.Spec Cert.Layout

variable (m : (ℓ : Loc nD τ sig) → Buf (Elt Ideal) ℓ) (ρ : Dev nD → PrngReg)

/-- The four float arguments as launched. -/
abbrev argS (c : Dev nD) : (⟨S16x1024, .f32⟩ : BufTy).Contents (Elt Ideal) := m ((c : Thread nD τ).loc main_arg0)
abbrev argE (c : Dev nD) : (⟨S16x256x1024, .f32⟩ : BufTy).Contents (Elt Ideal) := m ((c : Thread nD τ).loc main_arg1)
abbrev argW (c : Dev nD) : (⟨S32x3072, .f32⟩ : BufTy).Contents (Elt Ideal) := m ((c : Thread nD τ).loc main_arg2)
abbrev argB (c : Dev nD) : (⟨S32, .f32⟩ : BufTy).Contents (Elt Ideal) := m ((c : Thread nD τ).loc main_arg3)

/-- The kernel's last summand: `S · W₃ᵀ + β` as its own array operations state it. -/
def lastTerm (c : Dev nD) : (⟨S16x32, .f32⟩ : BufTy).Contents (Elt Ideal) :=
  addf (Host.dotGeneral (F := Ideal) (φ₁ := .f32) (φ₂ := .f32) dot_S16x1024_S1024x32_S16x32_1_0_0_1_n_n none (argS m c)
      (transpose S1024x32 [1, 0] (extractStridedSlice S32x1024 ![0, 2048] (argW m c) slices_S32x3072_S32x1024_0_2048) transposes_S32x1024_S1024x32_1_0))
    (broadcastInDim S16x32 ![0, 1] bcast_S1x32_S16x32_0_1 (broadcastInDim S1x32 ![1] bcast_S32_S1x32_1 (argB m c)))

/-! ## After the first stretch -/

theorem left_entry (c : Dev nD) :
    (V1 m ρ c main_v5 : S4096x1024.Idx → EReal) = shapeCast S4096x1024 (argE m c) shapeCasts_S16x256x1024_S4096x1024 := by
  show StableHlo.after hostOps0 (W0 m ρ c) (Proc.devRef .tc main_v5) = _
  after_results <;> rfl

theorem right_entry (c : Dev nD) :
    (V1 m ρ c main_v4 : S1024x64.Idx → EReal) = transpose S1024x64 [1, 0]
      (concatenate S64x1024 0 [⟨S32x1024, extractStridedSlice S32x1024 ![0, 0] (argW m c) slices_S32x3072_S32x1024_0_0⟩,
        ⟨S32x1024, extractStridedSlice S32x1024 ![0, 1024] (argW m c) slices_S32x3072_S32x1024_0_1024⟩] concatenates_S32x1024_S32x1024_S64x1024_d0)
      transposes_S64x1024_S1024x64_1_0 := by
  show StableHlo.after hostOps0 (W0 m ρ c) (Proc.devRef .tc main_v4) = _
  after_results <;> rfl

theorem third_band_entry (c : Dev nD) :
    (W1 m ρ c (Proc.devRef .tc main_v2) : S32x1024.Idx → EReal) = extractStridedSlice S32x1024 ![0, 2048] (argW m c) slices_S32x3072_S32x1024_0_2048 := by
  show StableHlo.after hostOps0 (W0 m ρ c) (Proc.devRef .tc main_v2) = _
  after_results <;> rfl

theorem seq_entry (c : Dev nD) : (W1 m ρ c (Proc.devRef .tc main_arg0) : S16x1024.Idx → EReal) = argS m c := by
  show StableHlo.after hostOps0 (W0 m ρ c) (Proc.devRef .tc main_arg0) = _
  after_results <;> rfl

theorem bias_entry (c : Dev nD) : (W1 m ρ c (Proc.devRef .tc main_arg3) : S32.Idx → EReal) = argB m c := by
  show StableHlo.after hostOps0 (W0 m ρ c) (Proc.devRef .tc main_arg3) = _
  after_results <;> rfl

/-! ## After the first grid computation -/

/-- The product is in place. -/
theorem product (c : Dev nD) :
    (W2 m ρ c (Proc.devRef .tc main_v6) : S4096x64.Idx → EReal)
      = Product.MM (V1 m ρ c main_v5 : S4096x1024.Idx → EReal) (V1 m ρ c main_v4 : S1024x64.Idx → EReal) :=
  (W2_arr m ρ c 2).trans (Product.final (V1 m ρ) c)

/-! ## After the second stretch -/

theorem first_half (c : Dev nD) :
    (V3 m ρ c main_v8 : S16x256x32.Idx → EReal) = extractStridedSlice S16x256x32 ![0, 0, 0]
      (shapeCast S16x256x64 (W2 m ρ c (Proc.devRef .tc main_v6) : S4096x64.Idx → EReal) shapeCasts_S4096x64_S16x256x64) slices_S16x256x64_S16x256x32_0_0_0 := by
  show StableHlo.after hostOps1 (W2 m ρ c) (Proc.devRef .tc main_v8) = _
  after_results <;> rfl

theorem second_half (c : Dev nD) :
    (V3 m ρ c main_v9 : S16x256x32.Idx → EReal) = extractStridedSlice S16x256x32 ![0, 0, 32]
      (shapeCast S16x256x64 (W2 m ρ c (Proc.devRef .tc main_v6) : S4096x64.Idx → EReal) shapeCasts_S4096x64_S16x256x64) slices_S16x256x64_S16x256x32_0_0_32 := by
  show StableHlo.after hostOps1 (W2 m ρ c) (Proc.devRef .tc main_v9) = _
  after_results <;> rfl

theorem last_entry (c : Dev nD) : (V3 m ρ c main_v14 : S16x32.Idx → EReal) = lastTerm m c := by
  show StableHlo.after hostOps1 (W2 m ρ c) (Proc.devRef .tc main_v14) = _
  after_results
  rw [W2_of_ne m ρ c main_arg0 (by decide), W2_of_ne m ρ c main_v2 (by decide), W2_of_ne m ρ c main_arg3 (by decide),
    seq_entry, third_band_entry, bias_entry]
  unfold lastTerm
  rfl

/-! ## The two halves are the two 1024-term sums -/

theorem first_pair (c : Dev nD) :
    (V3 m ρ c main_v8 : S16x256x32.Idx → EReal) = pair (argE m c) (argW m c) 0 (by decide) := by
  funext j
  obtain ⟨b, i, t, rfl⟩ : ∃ (b : Fin 16) (i : Fin 256) (t : Fin 32), j = ix3 b i t := ⟨j 0, j 1, j 2, eq_ix3 j⟩
  have hr : b.val * 256 + i.val < 4096 := by have := b.isLt; have := i.isLt; omega
  have hn : t.val < 64 := by have := t.isLt; omega
  rw [first_half]
  refine (band_of_rows _ 0 _ _ b i t ⟨b.val * 256 + i.val, hr⟩ ⟨t.val, hn⟩ rfl (Nat.zero_add _).symm).trans ?_
  rw [product]
  unfold Product.MM pair
  show (_ : EReal) = _
  refine Finset.sum_congr rfl fun k _ => ?_
  congr 1
  · exact (congrFun (left_entry m ρ c) _).trans (rows_of_planes _ _ b i k _ rfl)
  · exact (congrFun (right_entry m ρ c) _).trans
      ((stacked_left _ _ _ _ k _ t rfl).trans (slice2_axis1_apply 0 _ _ t k _ rfl))

theorem second_pair (c : Dev nD) :
    (V3 m ρ c main_v9 : S16x256x32.Idx → EReal) = pair (argE m c) (argW m c) 1024 (by decide) := by
  funext j
  obtain ⟨b, i, t, rfl⟩ : ∃ (b : Fin 16) (i : Fin 256) (t : Fin 32), j = ix3 b i t := ⟨j 0, j 1, j 2, eq_ix3 j⟩
  have hr : b.val * 256 + i.val < 4096 := by have := b.isLt; have := i.isLt; omega
  have hn : 32 + t.val < 64 := by have := t.isLt; omega
  rw [second_half]
  refine (band_of_rows _ 32 _ _ b i t ⟨b.val * 256 + i.val, hr⟩ ⟨32 + t.val, hn⟩ rfl rfl).trans ?_
  rw [product]
  unfold Product.MM pair
  show (_ : EReal) = _
  refine Finset.sum_congr rfl fun k _ => ?_
  congr 1
  · exact (congrFun (left_entry m ρ c) _).trans (rows_of_planes _ _ b i k _ rfl)
  · exact (congrFun (right_entry m ρ c) _).trans
      ((stacked_right _ _ _ _ k _ t rfl).trans (slice2_axis1_apply 1024 _ _ t k _ rfl))

/-! ## The result -/

/-- The result array ends at `G` of `E`, `W` and the kernel's own last summand. -/
theorem result_value (c : Dev nD) :
    (W4 m ρ c (Proc.devRef .tc main_v15) : S16x256x256x32.Idx → EReal) = G (argE m c) (argW m c) (lastTerm m c) := by
  rw [Whole.result_arr, Spread.final (V3 m ρ) c, first_pair, second_pair, last_entry]
  rfl

end Cert.KernelIdeal.Glue

end
-- ==== Proof.RefValue.lean ====
/-
  The reference computes `Spec.G`.

  Its last operation adds three broadcasts.  Read at `(b, i, j, t)`, the first is the contraction of `E` with
  the first band of `W` at `(b, i, t)`, the second the contraction with the second band at `(b, j, t)`, the
  third the 16 × 32 array `S · W₃ᵀ + β` at `(b, t)`; each contraction is, on the extended reals, the plain
  1024-term sum.  The third summand is kept as the reference's own 16 × 32 stage.
-/
import proofs.«125985_j38062000177708_2_alg».proof.Defs
import proofs.«125985_j38062000177708_2_alg».proof.Proof.Gen.ReferenceIdeal.Read
import proofs.«125985_j38062000177708_2_alg».proof.Proof.Spec

noncomputable section

namespace Cert.ReferenceIdeal.RefValue

open Idealize.ShloMosaic Idealize.ShloMosaic.TcCoe Idealize.SL.Sem
open Idealize.ShloMosaic.ValueIdx
open Cert.ReferenceIdeal Cert.ReferenceIdeal.Read Cert.Spec

/-- The contraction with the first band, as the 1024-term sum. -/
theorem first_band (x1 : (⟨S16x256x1024, .f32⟩ : BufTy).Contents (Elt Ideal)) (x2 : (⟨S32x3072, .f32⟩ : BufTy).Contents (Elt Ideal)) :
    val_main_v3 (F := Ideal) x1 x2 = pair x1 x2 0 (by decide) := by
  funext i
  rw [val_main_v3_apply]
  unfold pair
  refine Finset.sum_congr rfl fun k _ => ?_
  rw [val_main_v0_apply]
  congr 1
  · congr 1
    funext a
    match a with
    | ⟨0, _⟩ => rfl
    | ⟨1, _⟩ => rfl
    | ⟨2, _⟩ => rfl
  · congr 1
    funext a; apply Fin.ext
    match a with
    | ⟨0, _⟩ => rfl
    | ⟨1, _⟩ => show k.val = 0 + k.val; omega

/-- The contraction with the second band, as the 1024-term sum. -/
theorem second_band (x1 : (⟨S16x256x1024, .f32⟩ : BufTy).Contents (Elt Ideal)) (x2 : (⟨S32x3072, .f32⟩ : BufTy).Contents (Elt Ideal)) :
    val_main_v4 (F := Ideal) x1 x2 = pair x1 x2 1024 (by decide) := by
  funext i
  rw [val_main_v4_apply]
  unfold pair
  refine Finset.sum_congr rfl fun k _ => ?_
  rw [val_main_v1_apply]
  congr 1
  · congr 1
    funext a
    match a with
    | ⟨0, _⟩ => rfl
    | ⟨1, _⟩ => rfl
    | ⟨2, _⟩ => rfl
  · congr 1
    funext a; apply Fin.ext
    match a with
    | ⟨0, _⟩ => rfl
    | ⟨1, _⟩ => rfl

/-- The two broadcasts of the first contraction read it at `(b, i, t)`. -/
theorem idx_first (i : S16x256x256x32.Idx) :
    idx_main_v10 (idx_main_v12 i) = (ix3 (i 0) (i 1) (i 3) : S16x256x32.Idx) := by
  funext a
  match a with
  | ⟨0, _⟩ => rfl
  | ⟨1, _⟩ => rfl
  | ⟨2, _⟩ => rfl

/-- The two broadcasts of the second contraction read it at `(b, j, t)`. -/
theorem idx_second (i : S16x256x256x32.Idx) :
    idx_main_v11 (idx_main_v13 i) = (ix3 (i 0) (i 2) (i 3) : S16x256x32.Idx) := by
  funext a
  match a with
  | ⟨0, _⟩ => rfl
  | ⟨1, _⟩ => rfl
  | ⟨2, _⟩ => rfl

/-- The two broadcasts of the 16 × 32 stage read it at `(b, t)`. -/
theorem idx_third (i : S16x256x256x32.Idx) :
    idx_main_v15 (idx_main_v16 i) = (ix2 (i 0) (i 3) : S16x32.Idx) := by
  funext a
  match a with
  | ⟨0, _⟩ => rfl
  | ⟨1, _⟩ => rfl

/-- The reference's result is `G` of `E`, `W` and its own 16 × 32 stage `S · W₃ᵀ + β`. -/
theorem result_eq (x0 : (⟨S16x1024, .f32⟩ : BufTy).Contents (Elt Ideal)) (x1 : (⟨S16x256x1024, .f32⟩ : BufTy).Contents (Elt Ideal))
    (x2 : (⟨S32x3072, .f32⟩ : BufTy).Contents (Elt Ideal)) (x3 : (⟨S32, .f32⟩ : BufTy).Contents (Elt Ideal)) :
    val_main_v17 (F := Ideal) x0 x1 x2 x3 = G x1 x2 (val_main_v9 (F := Ideal) x0 x2 x3) := by
  funext i
  rw [val_main_v17_apply, val_main_v14_apply, val_main_v12_apply, val_main_v10_apply, val_main_v13_apply,
    val_main_v11_apply, val_main_v16_apply, val_main_v15_apply, first_band, second_band,
    idx_first, idx_second, idx_third]
  rfl

end Cert.ReferenceIdeal.RefValue

end
-- ==== Proof.Claims.lean ====
/-
  The five claims.

  Both idealized programs compute, at `(b, i, j, t)`,

      (∑ₖ E(b,i,k) · W₁(t,k)  +  ∑ₖ E(b,j,k) · W₂(t,k))  +  (∑ₖ S(b,k) · W₃(t,k) + β(t))

  with `W = [W₁ | W₂ | W₃]`.  The reference takes the three contractions directly and adds their broadcasts.
  The kernel stacks `W₁` and `W₂`, multiplies the 4096 rows of `E` by the stack in one blocked matrix
  product, splits the 64 columns again, and adds the broadcasts block by block.  On the extended reals a
  matrix product into a zero accumulator and a contraction are the same finite sum, each product's factors
  come in the same order and the three summands are added in the same grouping on both sides, so the two
  results are equal term by term: no law beyond re-indexing a sum is used, and the precondition (finite
  inputs) is never opened.  The last summand is the same sequence of array operations in both programs.
-/
import proofs.«125985_j38062000177708_2_alg».proof.Defs
import proofs.«125985_j38062000177708_2_alg».proof.Proof.Gen.Kernel
import proofs.«125985_j38062000177708_2_alg».proof.Proof.Gen.Kernel.Frame
import proofs.«125985_j38062000177708_2_alg».proof.Proof.Gen.KernelIdeal
import proofs.«125985_j38062000177708_2_alg».proof.Proof.Gen.KernelIdeal.Frame
import proofs.«125985_j38062000177708_2_alg».proof.Proof.Gen.ReferenceIdeal
import proofs.«125985_j38062000177708_2_alg».proof.Proof.Gen.ReferenceIdeal.Run
import proofs.«125985_j38062000177708_2_alg».proof.Proof.Gen.ReferenceIdeal.Read
import proofs.«125985_j38062000177708_2_alg».proof.Proof.Gen.Pre_finite_inputs
import proofs.«125985_j38062000177708_2_alg».proof.Proof.Spec
import proofs.«125985_j38062000177708_2_alg».proof.Proof.KernelRun
import proofs.«125985_j38062000177708_2_alg».proof.Proof.Glue
import proofs.«125985_j38062000177708_2_alg».proof.Proof.RefValue

noncomputable section

namespace Cert.Proof.Claims

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a straight line of array operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel's last summand and the reference's 16 × 32 stage are the same operations of the same
    arguments: the third band of `W` transposed, contracted with `S`, plus `β` broadcast over the rows. -/
theorem last_terms_agree (m : (ℓ : Loc Cert.KernelIdeal.nD Cert.KernelIdeal.τ Cert.KernelIdeal.sig) → Buf (Elt Ideal) ℓ)
    (c : Dev Cert.KernelIdeal.nD) :
    Cert.ReferenceIdeal.Read.val_main_v9 (F := Ideal) (Cert.KernelIdeal.Glue.argS m c) (Cert.KernelIdeal.Glue.argW m c)
        (Cert.KernelIdeal.Glue.argB m c)
      = Cert.KernelIdeal.Glue.lastTerm m c := rfl

/-- From memories agreeing on the arguments both idealized programs end with the result array at
    `Spec.G` of `E`, `W` and the common last summand. -/
theorem algebraic : Cert.algebraic_KernelIdeal_ReferenceIdeal := by
  intro m ρ m' ρ' _ hagree
  refine ⟨fun c => Cert.Spec.G (Cert.KernelIdeal.Glue.argE m c) (Cert.KernelIdeal.Glue.argW m c)
    (Cert.KernelIdeal.Glue.lastTerm m c), ?_, ?_⟩
  · exact (θ_run Cert.KernelIdeal.defs _ _).mono
      (fun _ h c => ⟨(h c).1.trans (Cert.KernelIdeal.Glue.result_value m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq, Cert.ReferenceIdeal.RefValue.result_eq,
      (hagree c).1, (hagree c).2.1, (hagree c).2.2.1, (hagree c).2.2.2.1]
    exact congrArg (Cert.Spec.G _ _) (last_terms_agree m c)

end Cert.Proof.Claims

end
-- ==== Proof.lean ====
/-
  `Cert.Claim`: the two programs' frames, the (empty) idealization ledger, and the equality of the idealized
  kernel's and the idealized reference's results over the extended reals.  The mathematics is in
  Proof/Claims.lean and the modules it imports: the function both compute (Spec), each grid computation's
  output array (Region0, Region1), the kernel's whole run and the re-arrangements between its two
  computations (KernelRun, Layout, Glue), and the reference read at an index (RefValue).
-/
import proofs.«125985_j38062000177708_2_alg».proof.Defs
import proofs.«125985_j38062000177708_2_alg».proof.Proof.Gen.Kernel
import proofs.«125985_j38062000177708_2_alg».proof.Proof.Gen.Kernel.Skeleton
import proofs.«125985_j38062000177708_2_alg».proof.Proof.Gen.Kernel.Launch
import proofs.«125985_j38062000177708_2_alg».proof.Proof.Gen.Kernel.Points
import proofs.«125985_j38062000177708_2_alg».proof.Proof.Gen.Kernel.Frame
import proofs.«125985_j38062000177708_2_alg».proof.Proof.Gen.KernelIdeal
import proofs.«125985_j38062000177708_2_alg».proof.Proof.Gen.KernelIdeal.Skeleton
import proofs.«125985_j38062000177708_2_alg».proof.Proof.Gen.KernelIdeal.Launch
import proofs.«125985_j38062000177708_2_alg».proof.Proof.Gen.KernelIdeal.Points
import proofs.«125985_j38062000177708_2_alg».proof.Proof.Gen.KernelIdeal.Frame
import proofs.«125985_j38062000177708_2_alg».proof.Proof.Gen.ReferenceIdeal
import proofs.«125985_j38062000177708_2_alg».proof.Proof.Gen.Pre_finite_inputs
import proofs.«125985_j38062000177708_2_alg».proof.Proof.Gen.ReferenceIdeal.Run
import proofs.«125985_j38062000177708_2_alg».proof.Proof.Gen.ReferenceIdeal.Read
import proofs.«125985_j38062000177708_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_kernel, Claims.frame_kernel_ideal, Claims.frame_reference_ideal, Claims.preserves, Claims.algebraic⟩

end Cert.Proof

end
